-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : IVec S2x1600000 32) (main_arg3 : FVec F S128x128 .f32) (main_arg4 : FVec F S128 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x64 : Shape := ⟨2, ![5000, 64]⟩
abbrev S5000x128 : Shape := ⟨2, ![5000, 128]⟩
abbrev S1700000x128 : Shape := ⟨2, ![1700000, 128]⟩
abbrev S1x128 : Shape := ⟨2, ![1, 128]⟩
abbrev S1x12800000 : Shape := ⟨2, ![1, 12800000]⟩
abbrev S1x6400000 : Shape := ⟨2, ![1, 6400000]⟩
abbrev S1700000x64 : Shape := ⟨2, ![1700000, 64]⟩
abbrev S1x64 : Shape := ⟨2, ![1, 64]⟩

abbrev nBuf : Space → Nat
  | .hbm => 90
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1x12800000, .f32⟩
  | .hbm, ⟨67, _⟩ => ⟨S1x6400000, .f32⟩
  | .hbm, ⟨68, _⟩ => ⟨S1x6400000, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  concatenates_S5000x64_S5000x64_S5000x128_d1 : Shape.Concatenates [S5000x64, S5000x64] S5000x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000x128_S1x12800000 : S100000x128.ShapeCasts S1x12800000
  slices_S1x12800000_S1x6400000_0_0 : S1x12800000.Slices ![0, 0] S1x6400000
  slices_S1x12800000_S1x6400000_0_6400000 : S1x12800000.Slices ![0, 6400000] S1x6400000
  shapeCasts_S1x6400000_S100000x64 : S1x6400000.ShapeCasts S100000x64
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg1) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1x12800000 : Shape := ⟨2, ![1, 12800000]⟩
abbrev S1x6400000 : Shape := ⟨2, ![1, 6400000]⟩
abbrev S1700000x64 : Shape := ⟨2, ![1700000, 64]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S1x12800000, .f32⟩
  | .hbm, ⟨77, _⟩ => ⟨S1x6400000, .f32⟩
  | .hbm, ⟨78, _⟩ => ⟨S1x6400000, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x128, .f32⟩
  | .hbm, ⟨83, _⟩ => ⟨S100000x64, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x64, .f32⟩
  | .hbm, ⟨93, _⟩ => ⟨S1700000x1, .f32⟩
  | .hbm, ⟨94, _⟩ => ⟨S1700000x64, .f32⟩
  | .hbm, ⟨95, _⟩ => ⟨S1700000x64, .f32⟩
  | .hbm, ⟨96, _⟩ => ⟨S_, .f32⟩
  | .hbm, ⟨97, _⟩ => ⟨S100000x64, .f32⟩
  | .hbm, ⟨98, _⟩ => ⟨S1700000x1, .i32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x64_S100000x64_S100000x128_d1 : Shape.Concatenates [S100000x64, S100000x64] S100000x128 1
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S1x12800000 : S100000x128.ShapeCasts S1x12800000
  slices_S1x12800000_S1x6400000_0_0 : S1x12800000.Slices ![0, 0] S1x6400000
  slices_S1x12800000_S1x6400000_0_6400000 : S1x12800000.Slices ![0, 6400000] S1x6400000
  shapeCasts_S1x6400000_S100000x64 : S1x6400000.ShapeCasts S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  Every weakly fair execution of the kernel's entry function, from any memory with zero counters, terminates without
  a fault; its argument arrays end as launched, and its result buffer ends at what the last boundary of the run
  holds there: the launch contents folded through the stretches of host operations and the four regions in order.
  The frame claim is this statement with the result forgotten; here the result's buffer is read off the same final
  thread state as the arguments are.
-/
import proofs.«161021_j60352880443529_1_alg».proof.Proof.Gen.KernelIdeal.Frame

set_option maxRecDepth 16384

noncomputable section

namespace Cert.GatedCell.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.GatedCell.KernelRun

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«161021_j60352880443529_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.LibLogisticTanh.lean ====
/-
  The logistic function written with a hyperbolic tangent, on the extended reals.

  For a real z, (1/2)·(1 + tanh(z/2)) = 1/(1 + e^(-z)): with a = e^(z/2), tanh(z/2) = (a - 1/a)/(a + 1/a), so
  1 + tanh(z/2) = 2a/(a + 1/a) = 2/(1 + 1/a²), and 1/a² = e^(-z).  At +∞ both sides are 1 (tanh is 1 there and
  e^(-∞) = 0); at -∞ both are 0 (tanh is -1 there, and 1/(1 + ∞) = 0).  So the two spellings are one function
  on all of [-∞, +∞], and no finiteness is needed to pass from one to the other.
-/
import Idealize.ShloMosaic.PureOps.Ideal

noncomputable section

namespace Cert.LogisticTanh

open Idealize.ShloMosaic

/-- The single-precision pattern of 0.5 denotes the real 1/2. -/
theorem ofBits_half : Ideal.ofBits .f32 0x3F000000#32 = ((1 / 2 : ℝ) : EReal) := by
  simp [Ideal.ofBits, Ideal.ieee, -EReal.coe_mul]; norm_num

/-- The single-precision pattern of 1.0 denotes 1. -/
theorem ofBits_one : Ideal.ofBits .f32 0x3F800000#32 = 1 := by
  simp [Ideal.ofBits, Ideal.ieee, -EReal.coe_mul]; norm_num

/-- On the reals: half of one plus the tangent of half the argument is the logistic function. -/
theorem real_half_tanh (r : ℝ) : (1 / 2 : ℝ) * (1 + Real.tanh (1 / 2 * r)) = (1 + Real.exp (-r))⁻¹ := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  generalize Real.exp (1 / 2 * r) = a at ha
  have h0 : a ≠ 0 := ha.ne'
  have h1 : a + a⁻¹ ≠ 0 := by positivity
  have h2 : 1 + a⁻¹ * a⁻¹ ≠ 0 := by positivity
  field_simp
  ring

/-- On the extended reals, infinities included. -/
theorem half_tanh_eq_logistic (z : EReal) :
    ((1 / 2 : ℝ) : EReal) * (1 + Ideal.tanh (((1 / 2 : ℝ) : EReal) * z)) = Ideal.logistic z := by
  induction z using EReal.rec with
  | bot =>
    rw [EReal.coe_mul_bot_of_pos (by norm_num), Ideal.tanh_bot, Ideal.logistic_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.tanh_coe, Ideal.logistic_coe, ← EReal.coe_one, ← EReal.coe_add, ← EReal.coe_mul,
      real_half_tanh]
  | top =>
    rw [EReal.coe_mul_top_of_pos (by norm_num), Ideal.tanh_top, Ideal.logistic_top, ← EReal.coe_one, ← EReal.coe_add,
      ← EReal.coe_mul]
    norm_num

/-- The tangent spelling over the bit patterns a program writes the two constants with. -/
theorem half_tanh_bits (z : EReal) :
    Ideal.ofBits .f32 0x3F000000#32 * (Ideal.ofBits .f32 0x3F800000#32 + Ideal.tanh (Ideal.ofBits .f32 0x3F000000#32 * z))
      = Ideal.logistic z := by
  rw [ofBits_half, ofBits_one, half_tanh_eq_logistic]

/-- The quotient spelling `1 / (1 + e^(-z))` over the bit pattern a program writes the constant with. -/
theorem quotient_bits (z : EReal) :
    Ideal.div (Ideal.ofBits .f32 0x3F800000#32) (Ideal.ofBits .f32 0x3F800000#32 + Ideal.exp (-z)) = Ideal.logistic z := by
  rw [ofBits_one]
  rfl

end Cert.LogisticTanh

end
-- ==== Proof.LibGatedRows.lean ====
/-
  One row of a gated graph cell, in the kernel's spelling and in the host's.

  Every stage of the cell between two neighbour aggregations acts on the node features row by row: a row of the
  result depends on the same row of each node-indexed operand, and on the whole of each weight or bias.  Stated
  here, for arrays with any number of rows, are the four stages at one entry: two blocks of columns laid side by
  side; the product of such a row with a weight matrix (into a zero accumulator, operands narrowed — at the exact
  reals a narrowing changes nothing — against the host's contraction); the gate σ(a + b), where the kernel's
  logistic function meets the host's quotient 1 / (1 + exp(−z)) on every extended real; and the convex
  combination u·h + (1 − u)·tanh(a + b).  Each lemma equates the kernel's entry at row r with the host's entry at
  row r', given that the operands' rows r and r' agree: this is what lets a block of rows stand for the same rows
  of the whole array.
-/
import Idealize.ShloMosaic.PureOps.Ideal.Laws
import Idealize.ShloMosaic.Lib.ValueIdx
import Idealize.ShloMosaic.Lib.Pipeline.Value
import proofs.«161021_j60352880443529_1_alg».proof.Proof.LibRowOps
import proofs.«161021_j60352880443529_1_alg».proof.Proof.LibHostRowOps
import proofs.«161021_j60352880443529_1_alg».proof.Proof.LibRowColOps
import proofs.«161021_j60352880443529_1_alg».proof.Proof.LibLogisticTanh

noncomputable section

namespace Cert.GatedCell

open Idealize.ShloMosaic Idealize.ShloMosaic.ValueIdx

/-! ## Two blocks of columns side by side -/

section Beside

variable {α : Type} {a a' p q n : Nat}

/-- A column of the joined rows that lies in the left block reads the left block. -/
theorem beside_left (x : (⟨2, ![a, p]⟩ : Shape).Idx → α) (y : (⟨2, ![a, q]⟩ : Shape).Idx → α)
    (h : Shape.Concatenates [⟨2, ![a, p]⟩, ⟨2, ![a, q]⟩] ⟨2, ![a, n]⟩ 1) (r : Fin a) (k : Fin n) (hk : k.val < p) :
    concatenate ⟨2, ![a, n]⟩ 1 [⟨⟨2, ![a, p]⟩, x⟩, ⟨⟨2, ![a, q]⟩, y⟩] h (ix2 r k) = x (ix2 r ⟨k.val, hk⟩) :=
  concatenate_pair_apply_left (1 : Fin 2) x y h (ix2 r k) rfl (ix2 r ⟨k.val, hk⟩)
    (fun b => by match b with | ⟨0, _⟩ => rfl | ⟨1, _⟩ => rfl)

/-- A column past the left block reads the right block, the left block's width less. -/
theorem beside_right (x : (⟨2, ![a, p]⟩ : Shape).Idx → α) (y : (⟨2, ![a, q]⟩ : Shape).Idx → α)
    (h : Shape.Concatenates [⟨2, ![a, p]⟩, ⟨2, ![a, q]⟩] ⟨2, ![a, n]⟩ 1) (r : Fin a) (k : Fin n) (hk : p ≤ k.val)
    (hkq : k.val - p < q) :
    concatenate ⟨2, ![a, n]⟩ 1 [⟨⟨2, ![a, p]⟩, x⟩, ⟨⟨2, ![a, q]⟩, y⟩] h (ix2 r k) = y (ix2 r ⟨k.val - p, hkq⟩) :=
  concatenate_pair_apply_right (1 : Fin 2) x y h (ix2 r k) rfl rfl (ix2 r ⟨k.val - p, hkq⟩)
    (fun b hb => by match b with | ⟨0, _⟩ => rfl | ⟨1, _⟩ => exact absurd rfl hb)
    (by show k.val - p + p = k.val; omega)

/-- Joined rows agree where the rows of both blocks agree. -/
theorem beside_row (x : (⟨2, ![a, p]⟩ : Shape).Idx → α) (y : (⟨2, ![a, q]⟩ : Shape).Idx → α)
    (x' : (⟨2, ![a', p]⟩ : Shape).Idx → α) (y' : (⟨2, ![a', q]⟩ : Shape).Idx → α)
    (h : Shape.Concatenates [⟨2, ![a, p]⟩, ⟨2, ![a, q]⟩] ⟨2, ![a, n]⟩ 1)
    (h' : Shape.Concatenates [⟨2, ![a', p]⟩, ⟨2, ![a', q]⟩] ⟨2, ![a', n]⟩ 1) (hn : n = p + q)
    (r : Fin a) (r' : Fin a') (hx : ∀ k : Fin p, x (ix2 r k) = x' (ix2 r' k))
    (hy : ∀ k : Fin q, y (ix2 r k) = y' (ix2 r' k)) (k : Fin n) :
    concatenate ⟨2, ![a, n]⟩ 1 [⟨⟨2, ![a, p]⟩, x⟩, ⟨⟨2, ![a, q]⟩, y⟩] h (ix2 r k)
      = concatenate ⟨2, ![a', n]⟩ 1 [⟨⟨2, ![a', p]⟩, x'⟩, ⟨⟨2, ![a', q]⟩, y'⟩] h' (ix2 r' k) := by
  by_cases hk : k.val < p
  · rw [beside_left x y h r k hk, beside_left x' y' h' r' k hk]
    exact hx _
  · have hk' : p ≤ k.val := Nat.le_of_not_lt hk
    have hkq : k.val - p < q := by have := k.isLt; omega
    rw [beside_right x y h r k hk' hkq, beside_right x' y' h' r' k hk' hkq]
    exact hy _

end Beside

/-! ## A row times a weight matrix -/

section Dense

variable {a a' K N : Nat} {d : DotDims ⟨2, ![a, K]⟩ ⟨2, ![K, N]⟩ ⟨2, ![a, N]⟩}
  {d' : DotDims ⟨2, ![a', K]⟩ ⟨2, ![K, N]⟩ ⟨2, ![a', N]⟩}

/-- The product of row r of X with W, narrowed operands into a zero accumulator, is the host's contraction of
    row r' of X' with W' when the two rows agree and W is W': both are the sum over k of the row's entry times the
    weight's. -/
theorem dense_row (hd : RowOps.IsPlain d) (hd' : RowOps.IsPlain d')
    (X : FVec Ideal ⟨2, ![a, K]⟩ .f32) (X' : FVec Ideal ⟨2, ![a', K]⟩ .f32) (W W' : FVec Ideal ⟨2, ![K, N]⟩ .f32)
    (hb : (FTy.bf16).bits < (FTy.f32).bits) (r : Fin a) (r' : Fin a')
    (hX : ∀ k : Fin K, X (ix2 r k) = X' (ix2 r' k)) (hW : ∀ (k : Fin K) (c : Fin N), W (ix2 k c) = W' (ix2 k c))
    (c : Fin N) :
    matmul d none (truncf .bf16 X hb) (truncf .bf16 W hb) (constant ⟨2, ![a, N]⟩ .f32 0x00000000#32) (ix2 r c)
      = Host.dotGeneral d' none X' W' (ix2 r' c) := by
  refine (RowOps.matmul_zero_apply hd none _ _ r c).trans ?_
  rw [HostRowOps.dot_apply hd']
  refine Finset.sum_congr rfl fun k _ => ?_
  show X (ix2 r k) * W (ix2 k c) = X' (ix2 r' k) * W' (ix2 k c)
  rw [hX k, hW k c]

end Dense

/-! ## The gate and the combination -/

section Pointwise

variable {a a' n : Nat}

/-- σ(v + b) at row r in the kernel's spelling is 1 / (1 + exp(−(A + B))) at row r' in the host's, when v's row r
    is A's row r' and the two bias rows agree: the logistic function is that quotient on every extended real. -/
theorem gate_row (v : FVec Ideal ⟨2, ![a, n]⟩ .f32) (b : FVec Ideal ⟨2, ![1, n]⟩ .f32)
    (A : FVec Ideal ⟨2, ![a', n]⟩ .f32) (B : FVec Ideal ⟨2, ![1, n]⟩ .f32)
    (h1 : (⟨2, ![a, n]⟩ : Shape).ShapeCasts ⟨2, ![a, n]⟩) (h2 : (⟨2, ![1, n]⟩ : Shape).ShapeCasts ⟨2, ![1, n]⟩)
    (h3 : (⟨2, ![1, n]⟩ : Shape).Broadcasts ⟨2, ![a, n]⟩)
    (g0 : (⟨0, ![]⟩ : Shape).BroadcastsInDim ⟨2, ![a', n]⟩ ![])
    (g1 : (⟨2, ![1, n]⟩ : Shape).BroadcastsInDim ⟨2, ![a', n]⟩ ![0, 1])
    (r : Fin a) (r' : Fin a') (c : Fin n) (hv : v (ix2 r c) = A (ix2 r' c))
    (hbB : b (ix2 (0 : Fin 1) c) = B (ix2 (0 : Fin 1) c)) :
    logistic (addf (shapeCast ⟨2, ![a, n]⟩ v h1) (broadcastTo ⟨2, ![a, n]⟩ (shapeCast ⟨2, ![1, n]⟩ b h2) h3)) (ix2 r c)
      = Host.divf (broadcastInDim ⟨2, ![a', n]⟩ ![] g0 (constant (F := Ideal) ⟨0, ![]⟩ .f32 0x3F800000#32))
          (addf (broadcastInDim ⟨2, ![a', n]⟩ ![] g0 (constant (F := Ideal) ⟨0, ![]⟩ .f32 0x3F800000#32))
            (Host.exp (Host.negf (addf A (broadcastInDim ⟨2, ![a', n]⟩ ![0, 1] g1 B))))) (ix2 r' c) := by
  rw [shapeCast_self, shapeCast_self]
  show Ideal.logistic (v (ix2 r c) + broadcastTo ⟨2, ![a, n]⟩ b h3 (ix2 r c))
    = Ideal.div (Ideal.ofBits .f32 0x3F800000#32)
        (Ideal.ofBits .f32 0x3F800000#32 + Ideal.exp (-(A (ix2 r' c) + broadcastInDim ⟨2, ![a', n]⟩ ![0, 1] g1 B (ix2 r' c))))
  rw [RowColOps.rowSpread_apply, HostRowOps.rowToMat_apply, LogisticTanh.quotient_bits, hv, hbB]

/-- u·h + (1 − u)·tanh(g + b) at row r in the kernel's spelling is the same expression at row r' in the host's,
    when the rows of u, h and g agree and the two bias rows agree. -/
theorem blend_row (g : FVec Ideal ⟨2, ![a, n]⟩ .f32) (b : FVec Ideal ⟨2, ![1, n]⟩ .f32)
    (u h : FVec Ideal ⟨2, ![a, n]⟩ .f32)
    (G : FVec Ideal ⟨2, ![a', n]⟩ .f32) (B : FVec Ideal ⟨2, ![1, n]⟩ .f32) (U H : FVec Ideal ⟨2, ![a', n]⟩ .f32)
    (h1 : (⟨2, ![a, n]⟩ : Shape).ShapeCasts ⟨2, ![a, n]⟩) (h2 : (⟨2, ![1, n]⟩ : Shape).ShapeCasts ⟨2, ![1, n]⟩)
    (h3 : (⟨2, ![1, n]⟩ : Shape).Broadcasts ⟨2, ![a, n]⟩)
    (g0 : (⟨0, ![]⟩ : Shape).BroadcastsInDim ⟨2, ![a', n]⟩ ![])
    (g1 : (⟨2, ![1, n]⟩ : Shape).BroadcastsInDim ⟨2, ![a', n]⟩ ![0, 1])
    (r : Fin a) (r' : Fin a') (c : Fin n) (hg : g (ix2 r c) = G (ix2 r' c))
    (hbB : b (ix2 (0 : Fin 1) c) = B (ix2 (0 : Fin 1) c))
    (hu : u (ix2 r c) = U (ix2 r' c)) (hh : h (ix2 r c) = H (ix2 r' c)) :
    addf (mulf (shapeCast ⟨2, ![a, n]⟩ u h1) h)
        (mulf (subf (broadcast ⟨2, ![a, n]⟩ (Scalar.ofBits (F := Ideal) .f32 0x3F800000#32)) (shapeCast ⟨2, ![a, n]⟩ u h1))
          (tanh (addf (shapeCast ⟨2, ![a, n]⟩ g h1) (broadcastTo ⟨2, ![a, n]⟩ (shapeCast ⟨2, ![1, n]⟩ b h2) h3)))) (ix2 r c)
      = addf (mulf U H)
        (mulf (subf (broadcastInDim ⟨2, ![a', n]⟩ ![] g0 (constant (F := Ideal) ⟨0, ![]⟩ .f32 0x3F800000#32)) U)
          (Host.tanh (addf G (broadcastInDim ⟨2, ![a', n]⟩ ![0, 1] g1 B)))) (ix2 r' c) := by
  rw [shapeCast_self, shapeCast_self, shapeCast_self]
  show u (ix2 r c) * h (ix2 r c)
      + (Ideal.ofBits .f32 0x3F800000#32 - u (ix2 r c)) * Ideal.tanh (g (ix2 r c) + broadcastTo ⟨2, ![a, n]⟩ b h3 (ix2 r c))
    = U (ix2 r' c) * H (ix2 r' c)
      + (Ideal.ofBits .f32 0x3F800000#32 - U (ix2 r' c))
        * Ideal.tanh (G (ix2 r' c) + broadcastInDim ⟨2, ![a', n]⟩ ![0, 1] g1 B (ix2 r' c))
  rw [RowColOps.rowSpread_apply, HostRowOps.rowToMat_apply, hg, hbB, hu, hh]

end Pointwise

end Cert.GatedCell

end
-- ==== Proof.RegionProject.lean ====
/-
  The first projection, [x | h]·W₁, as one function of whole arrays.

  The region walks the node axis in twenty blocks of 5000 rows.  At block t it loads rows 5000t … 5000t+4999 of x and
  of h, lays them side by side, multiplies by the whole of W₁ into a zero accumulator and writes the product back as
  the same rows of the result.  A row of the product depends on that row of x and h only, so what block t writes is
  rows 5000t … of the host's [x | h]·W₁; the twenty blocks tile the node axis, so the array the region leaves is that
  product whole.
-/
import proofs.«161021_j60352880443529_1_alg».proof.Proof.Gen.KernelIdeal.Frame
import proofs.«161021_j60352880443529_1_alg».proof.Proof.Gen.ReferenceIdeal
import proofs.«161021_j60352880443529_1_alg».proof.Proof.LibGatedRows

set_option maxRecDepth 16384

noncomputable section

namespace Cert.GatedCell.Project

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- [x | h]·W in the host's spelling. -/
def host (x h : FVec Ideal Cert.ReferenceIdeal.S100000x64 .f32) (W : FVec Ideal Cert.ReferenceIdeal.S128x128 .f32) :
    FVec Ideal Cert.ReferenceIdeal.S100000x128 .f32 :=
  Host.dotGeneral Cert.ReferenceIdeal.dot_S100000x128_S128x128_S100000x128_1_0_0_1_n_n none
    (concatenate Cert.ReferenceIdeal.S100000x128 1
      [⟨Cert.ReferenceIdeal.S100000x64, x⟩, ⟨Cert.ReferenceIdeal.S100000x64, h⟩]
      Cert.ReferenceIdeal.Gen.concatenates_S100000x64_S100000x64_S100000x128_d1) W

theorem plain_block : RowOps.IsPlain (M := 5000) (K := 128) (N := 128) dot_S5000x128_S128x128_S5000x128_1_0_0_1_n_n :=
  ⟨rfl, rfl, rfl, rfl, rfl, rfl⟩

theorem plain_host : RowOps.IsPlain (M := 100000) (K := 128) (N := 128)
    Cert.ReferenceIdeal.dot_S100000x128_S128x128_S100000x128_1_0_0_1_n_n :=
  ⟨rfl, rfl, rfl, rfl, rfl, rfl⟩

theorem hz : (![0, 0] : Fin 2 → Nat) = fun _ => 0 := funext fun a => by fin_cases a <;> rfl

/-- Where block t of each window sits: the row blocks at block row t, the weight at the origin. -/
theorem origin : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of block t of x is row 5000t + r of x. -/
theorem x_row (c : Dev nD) (t : Fin cfg0.N) (r : Fin 5000) (k : Fin 64) (hr : t.val * 5000 + r.val < 100000) :
    iblk0 V c 0 t (ix2 r k) = V c main_arg0 (ix2 ⟨t.val * 5000 + r.val, hr⟩ k) := by
  show V c main_arg0 (((cfg0.win 0).blk t).view.emb (ix2 r k)) = _
  refine congrArg _ ?_
  obtain ⟨e0, e1, -⟩ := origin t
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

/-- Row r of block t of h is row 5000t + r of h. -/
theorem h_row (c : Dev nD) (t : Fin cfg0.N) (r : Fin 5000) (k : Fin 64) (hr : t.val * 5000 + r.val < 100000) :
    iblk0 V c 1 t (ix2 r k) = V c main_arg1 (ix2 ⟨t.val * 5000 + r.val, hr⟩ k) := by
  show V c main_arg1 (((cfg0.win 1).blk t).view.emb (ix2 r k)) = _
  refine congrArg _ ?_
  obtain ⟨-, -, e0, e1, -⟩ := origin t
  funext a; apply Fin.ext
  match a with
  | ⟨0, _⟩ => show win0_1.index t (0 : Fin 2) * 5000 + 1 * r.val = t.val * 5000 + r.val; omega
  | ⟨1, _⟩ => show win0_1.index t (1 : Fin 2) * 64 + 1 * k.val = k.val; omega

/-- Every block of the weight is the weight. -/
theorem w_all (c : Dev nD) (t : Fin cfg0.N) (k : Fin 128) (q : Fin 128) :
    iblk0 V c 2 t (ix2 k q) = V c main_arg3 (ix2 k q) := by
  show V c main_arg3 (((cfg0.win 2).blk t).view.emb (ix2 k q)) = _
  refine congrArg _ ?_
  obtain ⟨-, -, -, -, e0, e1, -⟩ := origin t
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- What block t writes back is block t of the host's product. -/
theorem flushed (c : Dev nD) (t : Fin cfg0.N) :
    (dat0 V c).flushed 3 t
      = ((cfg0.win 3).blk t).view.read (Elt Ideal) (host (V c main_arg0) (V c main_arg1) (V c main_arg3)) := by
  show (cfg0.win 3).cut (grid0.coords t) ((dat0 V c).after 3 t) = _
  rw [after0_3]
  unfold out0_3
  rw [View.canon_unit_zero hz]
  simp only [View.ld_unit_zero (S := S5000x64) hz, View.ld_unit_zero (S := S128x128) hz]
  funext j
  obtain ⟨r, q, rfl⟩ : ∃ (r : Fin 5000) (q : Fin 128), j = ix2 r q := ⟨j 0, j 1, eq_ix2 j⟩
  have ht : t.val < 20 := lt_of_lt_of_eq t.isLt N_0
  have hr : t.val * 5000 + r.val < 100000 := by have := r.isLt; omega
  obtain ⟨-, -, -, -, -, -, e0, e1⟩ := origin t
  have he : ((cfg0.win 3).blk t).view.emb (ix2 r q) = ix2 (⟨t.val * 5000 + r.val, hr⟩ : Fin 100000) q := by
    funext a; apply Fin.ext
    match a with
    | ⟨0, _⟩ => show win0_3.index t (0 : Fin 2) * 5000 + 1 * r.val = t.val * 5000 + r.val; omega
    | ⟨1, _⟩ => show win0_3.index t (1 : Fin 2) * 128 + 1 * q.val = q.val; omega
  show k0_pay1 (iblk0 V c 0 t) (iblk0 V c 1 t) (iblk0 V c 2 t) (ix2 r q)
    = host (V c main_arg0) (V c main_arg1) (V c main_arg3) (((cfg0.win 3).blk t).view.emb (ix2 r q))
  rw [he]
  unfold k0_pay1 host
  exact dense_row plain_block plain_host _ _ _ _ _ r ⟨_, hr⟩
    (fun k => beside_row (a := 5000) (a' := 100000) (p := 64) (q := 64) (n := 128) _ _ _ _ _ _ rfl r ⟨_, hr⟩
      (fun k' => x_row V c t r k' hr) (fun k' => h_row V c t r k' hr) k)
    (fun k q' => w_all V c t k q') q

/-- An index lies in block t iff each coordinate lies in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v30).slice (win0_3.rect t)).set ↔ _
  rw [View.set_slice_whole, Rect.mem_set_unit]
  exact Iff.rfl

/-- Row p lies in block p / 5000: the blocks tile the node axis. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have htN : (i 0).val / 5000 < cfg0.N := by show _ < grid0.N; omega
  obtain ⟨-, -, -, -, -, -, e0, e1⟩ := origin ⟨(i 0).val / 5000, htN⟩
  refine ⟨⟨(i 0).val / 5000, htN⟩, flush0_3 _, ?_⟩
  rw [mem_blk]
  intro a
  match a with
  | ⟨0, _⟩ =>
    show win0_3.index ⟨(i 0).val / 5000, htN⟩ (0 : Fin 2) * 5000 ≤ (i 0).val
      ∧ (i 0).val < win0_3.index ⟨(i 0).val / 5000, htN⟩ (0 : Fin 2) * 5000 + 5000
    have e0' : win0_3.index ⟨(i 0).val / 5000, htN⟩ (0 : Fin 2) = (i 0).val / 5000 := e0
    omega
  | ⟨1, _⟩ =>
    show win0_3.index ⟨(i 0).val / 5000, htN⟩ (1 : Fin 2) * 128 ≤ (i 1).val
      ∧ (i 1).val < win0_3.index ⟨(i 0).val / 5000, htN⟩ (1 : Fin 2) * 128 + 128
    omega

/-- The array the region leaves: the host's product of the arrays it found. -/
theorem final (c : Dev nD) :
    (dat0 V c).arrAt 3 cfg0.N = host (V c main_arg0) (V c main_arg1) (V c main_arg3) :=
  (dat0 V c).arrAt_eq_of_cover 3 _ (fun t _ => flushed V c t) cover

end Cert.GatedCell.Project

end
-- ==== Proof.RegionGate.lean ====
/-
  The gate σ(a + b₁) as one function of whole arrays.

  The region walks the node axis in twenty blocks of 5000 rows.  At block t it loads rows 5000t … 5000t+4999 of the
  aggregated projection a and the whole bias row b₁, adds the row to every loaded row, applies the logistic function
  and writes the result back as the same rows.  Entry (p, q) of the result depends on a(p, q) and b₁(q) only, and the
  logistic function is the host's quotient 1 / (1 + exp(−z)) on every extended real, so what block t writes is rows
  5000t … of the host's gate; the twenty blocks tile the node axis.
-/
import proofs.«161021_j60352880443529_1_alg».proof.Proof.Gen.KernelIdeal.Frame
import proofs.«161021_j60352880443529_1_alg».proof.Proof.Gen.ReferenceIdeal
import proofs.«161021_j60352880443529_1_alg».proof.Proof.LibGatedRows

set_option maxRecDepth 16384

noncomputable section

namespace Cert.GatedCell.Gate

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- 1 / (1 + exp(−(a + b))) in the host's spelling, the bias given as a one-row array. -/
def host (A : FVec Ideal Cert.ReferenceIdeal.S100000x128 .f32) (B : FVec Ideal Cert.ReferenceIdeal.S1x128 .f32) : FVec Ideal Cert.ReferenceIdeal.S100000x128 .f32 :=
  Host.divf (broadcastInDim Cert.ReferenceIdeal.S100000x128 ![] Cert.ReferenceIdeal.Gen.bcast_S_S100000x128 (constant Cert.ReferenceIdeal.S_ .f32 0x3F800000#32))
    (addf (broadcastInDim Cert.ReferenceIdeal.S100000x128 ![] Cert.ReferenceIdeal.Gen.bcast_S_S100000x128 (constant Cert.ReferenceIdeal.S_ .f32 0x3F800000#32))
      (Host.exp (Host.negf (addf A (broadcastInDim Cert.ReferenceIdeal.S100000x128 ![0, 1] Cert.ReferenceIdeal.Gen.bcast_S1x128_S100000x128_0_1 B)))))

theorem hz : (![0, 0] : Fin 2 → Nat) = fun _ => 0 := funext fun a => by fin_cases a <;> rfl

/-- Where block t of each window sits: the row blocks at block row t, the bias row at the origin. -/
theorem origin : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of block t of the aggregate is its row 5000t + r. -/
theorem a_row (c : Dev nD) (t : Fin cfg1.N) (r : Fin 5000) (k : Fin 128) (hr : t.val * 5000 + r.val < 100000) :
    iblk1 V c 0 t (ix2 r k) = V c main_v43 (ix2 ⟨t.val * 5000 + r.val, hr⟩ k) := by
  show V c main_v43 (((cfg1.win 0).blk t).view.emb (ix2 r k)) = _
  refine congrArg _ ?_
  obtain ⟨e0, e1, -⟩ := origin t
  funext a; apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega

/-- Every block of the bias row is the bias row. -/
theorem b_all (c : Dev nD) (t : Fin cfg1.N) (k : Fin 1) (q : Fin 128) :
    iblk1 V c 1 t (ix2 k q) = V c main_v44 (ix2 k q) := by
  show V c main_v44 (((cfg1.win 1).blk t).view.emb (ix2 k q)) = _
  refine congrArg _ ?_
  obtain ⟨-, -, e0, e1, -⟩ := origin t
  funext a; apply Fin.ext
  match a with
  | ⟨0, _⟩ => show win1_1.index t (0 : Fin 2) * 1 + 1 * k.val = k.val; omega
  | ⟨1, _⟩ => show win1_1.index t (1 : Fin 2) * 128 + 1 * q.val = q.val; omega

/-- What block t writes back is block t of the host's gate. -/
theorem flushed (c : Dev nD) (t : Fin cfg1.N) :
    (dat1 V c).flushed 2 t = ((cfg1.win 2).blk t).view.read (Elt Ideal) (host (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext j
  obtain ⟨r, q, rfl⟩ : ∃ (r : Fin 5000) (q : Fin 128), j = ix2 r q := ⟨j 0, j 1, eq_ix2 j⟩
  have ht : t.val < 20 := lt_of_lt_of_eq t.isLt N_1
  have hr : t.val * 5000 + r.val < 100000 := by have := r.isLt; omega
  obtain ⟨-, -, -, -, e0, e1⟩ := origin t
  have he : ((cfg1.win 2).blk t).view.emb (ix2 r q) = ix2 (⟨t.val * 5000 + r.val, hr⟩ : Fin 100000) q := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  show k1_pay1 (iblk1 V c 0 t) (iblk1 V c 1 t) (ix2 r q)
    = host (V c main_v43) (V c main_v44) (((cfg1.win 2).blk t).view.emb (ix2 r q))
  rw [he]
  unfold k1_pay1 host
  exact gate_row (a := 5000) (a' := 100000) (n := 128) _ _ _ _ _ _ _ _ _ r ⟨_, hr⟩ q
    (a_row V c t r q hr) (b_all V c t 0 q)

/-- An index lies in block t iff each coordinate lies in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row p lies in block p / 5000: the blocks tile the node axis. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have htN : (i 0).val / 5000 < cfg1.N := by show _ < grid1.N; omega
  obtain ⟨-, -, -, -, e0, e1⟩ := origin ⟨(i 0).val / 5000, htN⟩
  refine ⟨⟨(i 0).val / 5000, htN⟩, flush1_2 _, ?_⟩
  rw [mem_blk]
  intro a
  match a with
  | ⟨0, _⟩ =>
    show win1_2.index ⟨(i 0).val / 5000, htN⟩ (0 : Fin 2) * 5000 ≤ (i 0).val
      ∧ (i 0).val < win1_2.index ⟨(i 0).val / 5000, htN⟩ (0 : Fin 2) * 5000 + 5000
    have e0' : win1_2.index ⟨(i 0).val / 5000, htN⟩ (0 : Fin 2) = (i 0).val / 5000 := e0
    omega
  | ⟨1, _⟩ =>
    show win1_2.index ⟨(i 0).val / 5000, htN⟩ (1 : Fin 2) * 128 ≤ (i 1).val
      ∧ (i 1).val < win1_2.index ⟨(i 0).val / 5000, htN⟩ (1 : Fin 2) * 128 + 128
    omega

/-- The array the region leaves: the host's expression of the arrays it found. -/
theorem final (c : Dev nD) :
    (dat1 V c).arrAt 2 cfg1.N = host (V c main_v43) (V c main_v44) :=
  (dat1 V c).arrAt_eq_of_cover 2 _ (fun t _ => flushed V c t) cover

end Cert.GatedCell.Gate

end
-- ==== Proof.RegionCandidate.lean ====
/-
  The second projection, [x | r ⊙ h]·W₂, as one function of whole arrays.

  The region walks the node axis in twenty blocks of 5000 rows.  At block t it loads rows 5000t … 5000t+4999 of the
  reset gate r, of h and of x, multiplies r and h entry by entry, lays x and the product side by side, multiplies by
  the whole of W₂ into a zero accumulator and writes the result back as the same rows.  A row of the result depends
  on that row of r, h and x only, so what block t writes is rows 5000t … of the host's [x | r ⊙ h]·W₂; the twenty
  blocks tile the node axis.
-/
import proofs.«161021_j60352880443529_1_alg».proof.Proof.Gen.KernelIdeal.Frame
import proofs.«161021_j60352880443529_1_alg».proof.Proof.Gen.ReferenceIdeal
import proofs.«161021_j60352880443529_1_alg».proof.Proof.LibGatedRows

set_option maxRecDepth 16384

noncomputable section

namespace Cert.GatedCell.Candidate

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- [x | r ⊙ h]·W in the host's spelling. -/
def host (R H X : FVec Ideal Cert.ReferenceIdeal.S100000x64 .f32) (W : FVec Ideal Cert.ReferenceIdeal.S128x64 .f32) : FVec Ideal Cert.ReferenceIdeal.S100000x64 .f32 :=
  Host.dotGeneral Cert.ReferenceIdeal.dot_S100000x128_S128x64_S100000x64_1_0_0_1_n_n none
    (concatenate Cert.ReferenceIdeal.S100000x128 1
      [⟨Cert.ReferenceIdeal.S100000x64, X⟩, ⟨Cert.ReferenceIdeal.S100000x64, mulf R H⟩]
      Cert.ReferenceIdeal.Gen.concatenates_S100000x64_S100000x64_S100000x128_d1) W

theorem plain_block : RowOps.IsPlain (M := 5000) (K := 128) (N := 64) dot_S5000x128_S128x64_S5000x64_1_0_0_1_n_n :=
  ⟨rfl, rfl, rfl, rfl, rfl, rfl⟩

theorem plain_host : RowOps.IsPlain (M := 100000) (K := 128) (N := 64)
    Cert.ReferenceIdeal.dot_S100000x128_S128x64_S100000x64_1_0_0_1_n_n :=
  ⟨rfl, rfl, rfl, rfl, rfl, rfl⟩

theorem hz : (![0, 0] : Fin 2 → Nat) = fun _ => 0 := funext fun a => by fin_cases a <;> rfl

/-- Where block t of each window sits: the row blocks at block row t, the weight at the origin. -/
theorem origin : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row r of block t of the reset gate is its row 5000t + r. -/
theorem r_row (c : Dev nD) (t : Fin cfg2.N) (r : Fin 5000) (k : Fin 64) (hr : t.val * 5000 + r.val < 100000) :
    iblk2 V c 0 t (ix2 r k) = V c main_v49 (ix2 ⟨t.val * 5000 + r.val, hr⟩ k) := by
  show V c main_v49 (((cfg2.win 0).blk t).view.emb (ix2 r k)) = _
  refine congrArg _ ?_
  obtain ⟨e0, e1, -⟩ := origin t
  funext a; apply Fin.ext
  match a with
  | ⟨0, _⟩ => show win2_0.index t (0 : Fin 2) * 5000 + 1 * r.val = t.val * 5000 + r.val; omega
  | ⟨1, _⟩ => show win2_0.index t (1 : Fin 2) * 64 + 1 * k.val = k.val; omega

/-- Row r of block t of h is row 5000t + r of h. -/
theorem h_row (c : Dev nD) (t : Fin cfg2.N) (r : Fin 5000) (k : Fin 64) (hr : t.val * 5000 + r.val < 100000) :
    iblk2 V c 1 t (ix2 r k) = V c main_arg1 (ix2 ⟨t.val * 5000 + r.val, hr⟩ k) := by
  show V c main_arg1 (((cfg2.win 1).blk t).view.emb (ix2 r k)) = _
  refine congrArg _ ?_
  obtain ⟨-, -, e0, e1, -⟩ := origin t
  funext a; apply Fin.ext
  match a with
  | ⟨0, _⟩ => show win2_1.index t (0 : Fin 2) * 5000 + 1 * r.val = t.val * 5000 + r.val; omega
  | ⟨1, _⟩ => show win2_1.index t (1 : Fin 2) * 64 + 1 * k.val = k.val; omega

/-- Row r of block t of x is row 5000t + r of x. -/
theorem x_row (c : Dev nD) (t : Fin cfg2.N) (r : Fin 5000) (k : Fin 64) (hr : t.val * 5000 + r.val < 100000) :
    iblk2 V c 2 t (ix2 r k) = V c main_arg0 (ix2 ⟨t.val * 5000 + r.val, hr⟩ k) := by
  show V c main_arg0 (((cfg2.win 2).blk t).view.emb (ix2 r k)) = _
  refine congrArg _ ?_
  obtain ⟨-, -, -, -, e0, e1, -⟩ := origin t
  funext a; apply Fin.ext
  match a with
  | ⟨0, _⟩ => show win2_2.index t (0 : Fin 2) * 5000 + 1 * r.val = t.val * 5000 + r.val; omega
  | ⟨1, _⟩ => show win2_2.index t (1 : Fin 2) * 64 + 1 * k.val = k.val; omega

/-- Every block of the weight is the weight. -/
theorem w_all (c : Dev nD) (t : Fin cfg2.N) (k : Fin 128) (q : Fin 64) :
    iblk2 V c 3 t (ix2 k q) = V c main_arg5 (ix2 k q) := by
  show V c main_arg5 (((cfg2.win 3).blk t).view.emb (ix2 k q)) = _
  refine congrArg _ ?_
  obtain ⟨-, -, -, -, -, -, e0, e1, -⟩ := origin t
  funext a; apply Fin.ext
  match a with
  | ⟨0, _⟩ => show win2_3.index t (0 : Fin 2) * 128 + 1 * k.val = k.val; omega
  | ⟨1, _⟩ => show win2_3.index t (1 : Fin 2) * 64 + 1 * q.val = q.val; omega

/-- What block t writes back is block t of the host's product. -/
theorem flushed (c : Dev nD) (t : Fin cfg2.N) :
    (dat2 V c).flushed 4 t = ((cfg2.win 4).blk t).view.read (Elt Ideal)
      (host (V c main_v49) (V c main_arg1) (V c main_arg0) (V c main_arg5)) := by
  show (cfg2.win 4).cut (grid2.coords t) ((dat2 V c).after 4 t) = _
  rw [after2_4]
  unfold out2_4
  rw [View.canon_unit_zero hz]
  simp only [View.ld_unit_zero (S := S5000x64) hz, View.ld_unit_zero (S := S128x64) hz]
  funext j
  obtain ⟨r, q, rfl⟩ : ∃ (r : Fin 5000) (q : Fin 64), j = ix2 r q := ⟨j 0, j 1, eq_ix2 j⟩
  have ht : t.val < 20 := lt_of_lt_of_eq t.isLt N_2
  have hr : t.val * 5000 + r.val < 100000 := by have := r.isLt; omega
  obtain ⟨-, -, -, -, -, -, -, -, e0, e1⟩ := origin t
  have he : ((cfg2.win 4).blk t).view.emb (ix2 r q) = ix2 (⟨t.val * 5000 + r.val, hr⟩ : Fin 100000) q := by
    funext a; apply Fin.ext
    match a with
    | ⟨0, _⟩ => show win2_4.index t (0 : Fin 2) * 5000 + 1 * r.val = t.val * 5000 + r.val; omega
    | ⟨1, _⟩ => show win2_4.index t (1 : Fin 2) * 64 + 1 * q.val = q.val; omega
  show k2_pay1 (iblk2 V c 0 t) (iblk2 V c 1 t) (iblk2 V c 2 t) (iblk2 V c 3 t) (ix2 r q)
    = host (V c main_v49) (V c main_arg1) (V c main_arg0) (V c main_arg5) (((cfg2.win 4).blk t).view.emb (ix2 r q))
  rw [he]
  unfold k2_pay1 host
  exact dense_row plain_block plain_host _ _ _ _ _ r ⟨_, hr⟩
    (fun k => beside_row (a := 5000) (a' := 100000) (p := 64) (q := 64) (n := 128) _ _ _ _ _ _ rfl r ⟨_, hr⟩
      (fun k' => x_row V c t r k' hr)
      (fun k' => congrArg₂ (FloatOps.mulf (F := Ideal) (φ := .f32))
        ((congrFun (shapeCast_self (iblk2 V c 0 t) shapeCasts_S5000x64_S5000x64) (ix2 r k')).trans (r_row V c t r k' hr))
        (h_row V c t r k' hr)) k)
    (fun k q' => w_all V c t k q') q

/-- An index lies in block t iff each coordinate lies in the block's range on its axis. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v51).slice (win2_4.rect t)).set ↔ _
  rw [View.set_slice_whole, Rect.mem_set_unit]
  exact Iff.rfl

/-- Row p lies in block p / 5000: the blocks tile the node axis. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : grid2.N = 20 := N_2
  have htN : (i 0).val / 5000 < cfg2.N := by show _ < grid2.N; omega
  obtain ⟨-, -, -, -, -, -, -, -, e0, e1⟩ := origin ⟨(i 0).val / 5000, htN⟩
  refine ⟨⟨(i 0).val / 5000, htN⟩, flush2_4 _, ?_⟩
  rw [mem_blk]
  intro a
  match a with
  | ⟨0, _⟩ =>
    show win2_4.index ⟨(i 0).val / 5000, htN⟩ (0 : Fin 2) * 5000 ≤ (i 0).val
      ∧ (i 0).val < win2_4.index ⟨(i 0).val / 5000, htN⟩ (0 : Fin 2) * 5000 + 5000
    have e0' : win2_4.index ⟨(i 0).val / 5000, htN⟩ (0 : Fin 2) = (i 0).val / 5000 := e0
    omega
  | ⟨1, _⟩ =>
    show win2_4.index ⟨(i 0).val / 5000, htN⟩ (1 : Fin 2) * 64 ≤ (i 1).val
      ∧ (i 1).val < win2_4.index ⟨(i 0).val / 5000, htN⟩ (1 : Fin 2) * 64 + 64
    omega

/-- The array the region leaves: the host's expression of the arrays it found. -/
theorem final (c : Dev nD) :
    (dat2 V c).arrAt 4 cfg2.N = host (V c main_v49) (V c main_arg1) (V c main_arg0) (V c main_arg5) :=
  (dat2 V c).arrAt_eq_of_cover 4 _ (fun t _ => flushed V c t) cover

end Cert.GatedCell.Candidate

end
-- ==== Proof.RegionBlend.lean ====
/-
  The new hidden state u ⊙ h + (1 − u) ⊙ tanh(g + b₂) as one function of whole arrays.

  The region walks the node axis in twenty blocks of 5000 rows.  At block t it loads rows 5000t … 5000t+4999 of the
  aggregated candidate g, of the update gate u and of h, and the whole bias row b₂, and writes the combination back as
  the same rows.  Entry (p, q) of the result depends on g(p, q), u(p, q), h(p, q) and b₂(q) only, so what block t
  writes is rows 5000t … of the host's combination; the twenty blocks tile the node axis.
-/
import proofs.«161021_j60352880443529_1_alg».proof.Proof.Gen.KernelIdeal.Frame
import proofs.«161021_j60352880443529_1_alg».proof.Proof.Gen.ReferenceIdeal
import proofs.«161021_j60352880443529_1_alg».proof.Proof.LibGatedRows

set_option maxRecDepth 16384

noncomputable section

namespace Cert.GatedCell.Blend

open Idealize.ShloMosaic Idealize.ShloMosaic.TcCoe Idealize.ShloMosaic.ValueIdx
open Cert.KernelIdeal Cert.KernelIdeal.Gen

variable (V : (c : Dev nD) → (b : Ref sig .tc) → Buf (Elt Ideal) ((c : Thread nD τ).loc b))

/-- u·h + (1 − u)·tanh(g + b) in the host's spelling, the bias given as a one-row array. -/
def host (G : FVec Ideal Cert.ReferenceIdeal.S100000x64 .f32) (B : FVec Ideal Cert.ReferenceIdeal.S1x64 .f32) (Ug H : FVec Ideal Cert.ReferenceIdeal.S100000x64 .f32) :
    FVec Ideal Cert.ReferenceIdeal.S100000x64 .f32 :=
  addf (mulf Ug H)
    (mulf (subf (broadcastInDim Cert.ReferenceIdeal.S100000x64 ![] Cert.ReferenceIdeal.Gen.bcast_S_S100000x64 (constant Cert.ReferenceIdeal.S_ .f32 0x3F800000#32)) Ug)
      (Host.tanh (addf G (broadcastInDim Cert.ReferenceIdeal.S100000x64 ![0, 1] Cert.ReferenceIdeal.Gen.bcast_S1x64_S100000x64_0_1 B))))

theorem hz : (![0, 0] : Fin 2 → Nat) = fun _ => 0 := funext fun a => by fin_cases a <;> rfl

/-- Where block t of each window sits: the row blocks at block row t, the bias row at the origin. -/
theorem origin : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Row r of block t of the aggregated candidate is its row 5000t + r. -/
theorem g_row (c : Dev nD) (t : Fin cfg3.N) (r : Fin 5000) (k : Fin 64) (hr : t.val * 5000 + r.val < 100000) :
    iblk3 V c 0 t (ix2 r k) = V c main_v64 (ix2 ⟨t.val * 5000 + r.val, hr⟩ k) := by
  show V c main_v64 (((cfg3.win 0).blk t).view.emb (ix2 r k)) = _
  refine congrArg _ ?_
  obtain ⟨e0, e1, -⟩ := origin t
  funext a; apply Fin.ext
  match a with
  | ⟨0, _⟩ => show win3_0.index t (0 : Fin 2) * 5000 + 1 * r.val = t.val * 5000 + r.val; omega
  | ⟨1, _⟩ => show win3_0.index t (1 : Fin 2) * 64 + 1 * k.val = k.val; omega

/-- Every block of the bias row is the bias row. -/
theorem b_all (c : Dev nD) (t : Fin cfg3.N) (k : Fin 1) (q : Fin 64) :
    iblk3 V c 1 t (ix2 k q) = V c main_v65 (ix2 k q) := by
  show V c main_v65 (((cfg3.win 1).blk t).view.emb (ix2 k q)) = _
  refine congrArg _ ?_
  obtain ⟨-, -, e0, e1, -⟩ := origin t
  funext a; apply Fin.ext
  match a with
  | ⟨0, _⟩ => show win3_1.index t (0 : Fin 2) * 1 + 1 * k.val = k.val; omega
  | ⟨1, _⟩ => show win3_1.index t (1 : Fin 2) * 64 + 1 * q.val = q.val; omega

/-- Row r of block t of the update gate is its row 5000t + r. -/
theorem u_row (c : Dev nD) (t : Fin cfg3.N) (r : Fin 5000) (k : Fin 64) (hr : t.val * 5000 + r.val < 100000) :
    iblk3 V c 2 t (ix2 r k) = V c main_v50 (ix2 ⟨t.val * 5000 + r.val, hr⟩ k) := by
  show V c main_v50 (((cfg3.win 2).blk t).view.emb (ix2 r k)) = _
  refine congrArg _ ?_
  obtain ⟨-, -, -, -, e0, e1, -⟩ := origin t
  funext a; apply Fin.ext
  match a with
  | ⟨0, _⟩ => show win3_2.index t (0 : Fin 2) * 5000 + 1 * r.val = t.val * 5000 + r.val; omega
  | ⟨1, _⟩ => show win3_2.index t (1 : Fin 2) * 64 + 1 * k.val = k.val; omega

/-- Row r of block t of h is row 5000t + r of h. -/
theorem h_row (c : Dev nD) (t : Fin cfg3.N) (r : Fin 5000) (k : Fin 64) (hr : t.val * 5000 + r.val < 100000) :
    iblk3 V c 3 t (ix2 r k) = V c main_arg1 (ix2 ⟨t.val * 5000 + r.val, hr⟩ k) := by
  show V c main_arg1 (((cfg3.win 3).blk t).view.emb (ix2 r k)) = _
  refine congrArg _ ?_
  obtain ⟨-, -, -, -, -, -, e0, e1, -⟩ := origin t
  funext a; apply Fin.ext
  match a with
  | ⟨0, _⟩ => show win3_3.index t (0 : Fin 2) * 5000 + 1 * r.val = t.val * 5000 + r.val; omega
  | ⟨1, _⟩ => show win3_3.index t (1 : Fin 2) * 64 + 1 * k.val = k.val; omega

/-- What block t writes back is block t of the host's combination. -/
theorem flushed (c : Dev nD) (t : Fin cfg3.N) :
    (dat3 V c).flushed 4 t = ((cfg3.win 4).blk t).view.read (Elt Ideal)
      (host (V c main_v64) (V c main_v65) (V c main_v50) (V c main_arg1)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz]
  funext j
  obtain ⟨r, q, rfl⟩ : ∃ (r : Fin 5000) (q : Fin 64), j = ix2 r q := ⟨j 0, j 1, eq_ix2 j⟩
  have ht : t.val < 20 := lt_of_lt_of_eq t.isLt N_3
  have hr : t.val * 5000 + r.val < 100000 := by have := r.isLt; omega
  obtain ⟨-, -, -, -, -, -, -, -, e0, e1⟩ := origin t
  have he : ((cfg3.win 4).blk t).view.emb (ix2 r q) = ix2 (⟨t.val * 5000 + r.val, hr⟩ : Fin 100000) q := by
    funext a; apply Fin.ext
    match a with
    | ⟨0, _⟩ => show win3_4.index t (0 : Fin 2) * 5000 + 1 * r.val = t.val * 5000 + r.val; omega
    | ⟨1, _⟩ => show win3_4.index t (1 : Fin 2) * 64 + 1 * q.val = q.val; omega
  show k3_pay1 (iblk3 V c 0 t) (iblk3 V c 1 t) (iblk3 V c 2 t) (iblk3 V c 3 t) (ix2 r q)
    = host (V c main_v64) (V c main_v65) (V c main_v50) (V c main_arg1) (((cfg3.win 4).blk t).view.emb (ix2 r q))
  rw [he]
  unfold k3_pay1 host
  exact blend_row (a := 5000) (a' := 100000) (n := 64) _ _ _ _ _ _ _ _ _ _ _ _ _ r ⟨_, hr⟩ q
    (g_row V c t r q hr) (b_all V c t 0 q) (u_row V c t r q hr) (h_row V c t r q hr)

/-- An index lies in block t iff each coordinate lies in the block's range on its axis. -/
theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v66).slice (win3_4.rect t)).set ↔ _
  rw [View.set_slice_whole, Rect.mem_set_unit]
  exact Iff.rfl

/-- Row p lies in block p / 5000: the blocks tile the node axis. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have htN : (i 0).val / 5000 < cfg3.N := by show _ < grid3.N; omega
  obtain ⟨-, -, -, -, -, -, -, -, e0, e1⟩ := origin ⟨(i 0).val / 5000, htN⟩
  refine ⟨⟨(i 0).val / 5000, htN⟩, flush3_4 _, ?_⟩
  rw [mem_blk]
  intro a
  match a with
  | ⟨0, _⟩ =>
    show win3_4.index ⟨(i 0).val / 5000, htN⟩ (0 : Fin 2) * 5000 ≤ (i 0).val
      ∧ (i 0).val < win3_4.index ⟨(i 0).val / 5000, htN⟩ (0 : Fin 2) * 5000 + 5000
    have e0' : win3_4.index ⟨(i 0).val / 5000, htN⟩ (0 : Fin 2) = (i 0).val / 5000 := e0
    omega
  | ⟨1, _⟩ =>
    show win3_4.index ⟨(i 0).val / 5000, htN⟩ (1 : Fin 2) * 64 ≤ (i 1).val
      ∧ (i 1).val < win3_4.index ⟨(i 0).val / 5000, htN⟩ (1 : Fin 2) * 64 + 64
    omega

/-- The array the region leaves: the host's expression of the arrays it found. -/
theorem final (c : Dev nD) :
    (dat3 V c).arrAt 4 cfg3.N = host (V c main_v64) (V c main_v65) (V c main_v50) (V c main_arg1) :=
  (dat3 V c).arrAt_eq_of_cover 4 _ (fun t _ => flushed V c t) cover

end Cert.GatedCell.Blend

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.LibRowAsBroadcast.lean ====
/-
  A vector reshaped to one row is the vector broadcast to one row.

  A kernel's caller hands a length-n bias to the kernel as a [1, n] row by a reshape; a host program that adds the
  same bias to every row of an array first lays it along the second axis of a [1, n] row by a broadcast.  Both rows
  hold entry j of the vector at (0, j): they are the same array.
-/
import Idealize.ShloMosaic.Lib.ValueIdx
import Idealize.ShloMosaic.Lib.Pipeline.Value
import proofs.«161021_j60352880443529_1_alg».proof.Proof.LibRowView
import proofs.«161021_j60352880443529_1_alg».proof.Proof.LibHostRowOps

noncomputable section

namespace Cert.RowAsBroadcast

open Idealize.ShloMosaic Idealize.ShloMosaic.ValueIdx

variable {α : Type} {n : Nat}

/-- The reshape of a length-`n` vector to a `[1, n]` row is its broadcast along the row's second axis. -/
theorem row_eq (x : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ x hs = broadcastInDim ⟨2, ![1, n]⟩ ![1] hb x :=
  funext fun j => by
    obtain ⟨u, k, rfl⟩ : ∃ (u : Fin 1) (k : Fin n), j = ix2 u k := ⟨j 0, j 1, eq_ix2 j⟩
    rw [Cert.RowView.row_apply, Cert.HostRowOps.vecToRow_apply]

end Cert.RowAsBroadcast

end
-- ==== Proof.Line.lean ====
/-
  The idealized kernel as one line of operations, and its result against the reference's.

  Between its stretches of host operations the kernel runs four regions.  Each region leaves its input arrays as it
  found them and its one output array at a function of those inputs — the host's own expression of that stage — so it
  rewrites the buffer contents exactly as one host operation with that function would.  The kernel's run is then a
  single line of operations folded over the launch contents, and what its result buffer holds at the end is obtained by
  walking that line backwards.  The walk gives the reference's composed term, operation for operation: the same
  normalisation coefficients, the same gathers and scatter-adds, the same reshapes and splits, and in the four places
  where the reference has a projection, a gate or the final combination, the region's function, which is that
  expression.  The one difference left is how a bias vector becomes a one-row array — a reshape in the kernel, a
  broadcast in the reference — and the two are the same array.
-/
import proofs.«161021_j60352880443529_1_alg».proof.Proof.Gen.KernelIdeal.Frame
import proofs.«161021_j60352880443529_1_alg».proof.Proof.RegionProject
import proofs.«161021_j60352880443529_1_alg».proof.Proof.RegionGate
import proofs.«161021_j60352880443529_1_alg».proof.Proof.RegionCandidate
import proofs.«161021_j60352880443529_1_alg».proof.Proof.RegionBlend
import proofs.«161021_j60352880443529_1_alg».proof.Proof.ReferenceRun
import proofs.«161021_j60352880443529_1_alg».proof.Proof.LibRegionOp
import proofs.«161021_j60352880443529_1_alg».proof.Proof.LibLineEval
import proofs.«161021_j60352880443529_1_alg».proof.Proof.LibRowAsBroadcast

set_option maxRecDepth 16384

noncomputable section

namespace Cert.GatedCell.Line

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-! ## The regions as operations -/

/-- The first projection as an operation: x, h, W₁ ↦ [x | h]·W₁. -/
abbrev project : HloOp τ sig (Elt Ideal) :=
  StableHlo.ternary main_arg0 main_arg1 main_arg3 main_v30
    (Project.host : (⟨S100000x64, .f32⟩ : BufTy).Contents (Elt Ideal) → (⟨S100000x64, .f32⟩ : BufTy).Contents (Elt Ideal) → (⟨S128x128, .f32⟩ : BufTy).Contents (Elt Ideal) → (⟨S100000x128, .f32⟩ : BufTy).Contents (Elt Ideal))

/-- The gate as an operation: a, b₁ ↦ σ(a + b₁), the bias vector laid out as one row. -/
abbrev gate : HloOp τ sig (Elt Ideal) :=
  StableHlo.binary main_v43 main_arg4 main_v45
    ((fun a b => Gate.host a (broadcastInDim Cert.ReferenceIdeal.S1x128 ![1] Cert.ReferenceIdeal.Gen.bcast_S128_S1x128_1 b)) :
      (⟨S100000x128, .f32⟩ : BufTy).Contents (Elt Ideal) → (⟨S128, .f32⟩ : BufTy).Contents (Elt Ideal) → (⟨S100000x128, .f32⟩ : BufTy).Contents (Elt Ideal))

/-- The second projection as an operation: r, h, x, W₂ ↦ [x | r ⊙ h]·W₂. -/
abbrev candidate : HloOp τ sig (Elt Ideal) :=
  StableHlo.quaternary main_v49 main_arg1 main_arg0 main_arg5 main_v51
    (Candidate.host : (⟨S100000x64, .f32⟩ : BufTy).Contents (Elt Ideal) → (⟨S100000x64, .f32⟩ : BufTy).Contents (Elt Ideal) → (⟨S100000x64, .f32⟩ : BufTy).Contents (Elt Ideal) → (⟨S128x64, .f32⟩ : BufTy).Contents (Elt Ideal) → (⟨S100000x64, .f32⟩ : BufTy).Contents (Elt Ideal))

/-- The combination as an operation: g, b₂, u, h ↦ u ⊙ h + (1 − u) ⊙ tanh(g + b₂), the bias vector laid out as one row. -/
abbrev blend : HloOp τ sig (Elt Ideal) :=
  StableHlo.quaternary main_v64 main_arg6 main_v50 main_arg1 main_v66
    ((fun g b u h => Blend.host g (broadcastInDim Cert.ReferenceIdeal.S1x64 ![1] Cert.ReferenceIdeal.Gen.bcast_S64_S1x64_1 b) u h) :
      (⟨S100000x64, .f32⟩ : BufTy).Contents (Elt Ideal) → (⟨S64, .f32⟩ : BufTy).Contents (Elt Ideal) → (⟨S100000x64, .f32⟩ : BufTy).Contents (Elt Ideal) → (⟨S100000x64, .f32⟩ : BufTy).Contents (Elt Ideal) → (⟨S100000x64, .f32⟩ : BufTy).Contents (Elt Ideal))

/-! ## The bias rows

The stretch before the gate ends by reshaping the bias vector b₁ to one row, and nothing in the stretch writes b₁;
the row a region finds is therefore the vector it could read directly, laid out as a row — a reshape and a broadcast
to one row being the same array.  Likewise b₂ before the combination. -/

/-- The row the gate finds is b₁ as the region's entry contents hold it, laid out as one row. -/
theorem row1 (c : Dev nD) :
    W5 m ρ c (Proc.devRef .tc main_v44)
      = broadcastInDim Cert.ReferenceIdeal.S1x128 ![1] Cert.ReferenceIdeal.Gen.bcast_S128_S1x128_1
          (W5 m ρ c (Proc.devRef .tc main_arg4)) := by
  have e1 : W5 m ρ c (Proc.devRef .tc main_v44)
      = shapeCast S1x128 (W4 m ρ c (Proc.devRef .tc main_arg4)) shapeCasts_S128_S1x128 := by
    show after hostOps1 (W4 m ρ c) (Proc.devRef .tc main_v44) = _
    after_results
    rfl
  have e2 : W5 m ρ c (Proc.devRef .tc main_arg4) = W4 m ρ c (Proc.devRef .tc main_arg4) := by
    show after hostOps1 (W4 m ρ c) (Proc.devRef .tc main_arg4) = _
    after_results
  rw [e1, e2]
  exact RowAsBroadcast.row_eq (n := 128) _ _ _

/-- The row the combination finds is b₂ as the region's entry contents hold it, laid out as one row. -/
theorem row3 (c : Dev nD) :
    W9 m ρ c (Proc.devRef .tc main_v65)
      = broadcastInDim Cert.ReferenceIdeal.S1x64 ![1] Cert.ReferenceIdeal.Gen.bcast_S64_S1x64_1
          (W9 m ρ c (Proc.devRef .tc main_arg6)) := by
  have e1 : W9 m ρ c (Proc.devRef .tc main_v65)
      = shapeCast S1x64 (W8 m ρ c (Proc.devRef .tc main_arg6)) shapeCasts_S64_S1x64 := by
    show after hostOps3 (W8 m ρ c) (Proc.devRef .tc main_v65) = _
    after_results
    rfl
  have e2 : W9 m ρ c (Proc.devRef .tc main_arg6) = W8 m ρ c (Proc.devRef .tc main_arg6) := by
    show after hostOps3 (W8 m ρ c) (Proc.devRef .tc main_arg6) = _
    after_results
  rw [e1, e2]
  exact RowAsBroadcast.row_eq (n := 64) _ _ _

/-- The first region leaves what the projection, as an operation, leaves. -/
theorem exit0 (c : Dev nD) : W4 m ρ c = project.result (W3 m ρ c) := by
  unfold W4
  refine RegionOp.withArrays_eq_result spec0 launch0.win.arr_inj c (W3 m ρ c) _ project 3 rfl ?_ ?_
  · exact (Project.final (V3 m ρ) c).trans (ternary_result main_arg0 main_arg1 main_arg3 main_v30 _ _ _ _ _ (W3 m ρ c)).symm
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, _ => exact ((dat0 (V3 m ρ) c).arrAt_in 2 rfl _).trans (A_eq0 (V3 m ρ) c 2)
    | ⟨3, _⟩, h => exact absurd rfl h

/-- The second region leaves what the gate, as an operation, leaves. -/
theorem exit1 (c : Dev nD) : W6 m ρ c = gate.result (W5 m ρ c) := by
  unfold W6
  refine RegionOp.withArrays_eq_result spec1 launch1.win.arr_inj c (W5 m ρ c) _ gate 2 rfl ?_ ?_
  · refine (Gate.final (V5 m ρ) c).trans (Eq.trans ?_ (binary_result main_v43 main_arg4 main_v45 _ _ _ _ (W5 m ρ c)).symm)
    exact congrArg (Gate.host (W5 m ρ c (Proc.devRef .tc main_v43))) (row1 m ρ c)
  · intro w hw
    match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, h => exact absurd rfl h

/-- The third region leaves what the second projection, as an operation, leaves. -/
theorem exit2 (c : Dev nD) : W8 m ρ c = candidate.result (W7 m ρ c) := by
  unfold W8
  refine RegionOp.withArrays_eq_result spec2 launch2.win.arr_inj c (W7 m ρ c) _ candidate 4 rfl ?_ ?_
  · exact (Candidate.final (V7 m ρ) c).trans
      (quaternary_result main_v49 main_arg1 main_arg0 main_arg5 main_v51 _ _ _ _ _ _ (W7 m ρ c)).symm
  · intro w hw
    match w, hw with
    | ⟨0, _⟩, _ => exact ((dat2 (V7 m ρ) c).arrAt_in 0 rfl _).trans (A_eq2 (V7 m ρ) c 0)
    | ⟨1, _⟩, _ => exact ((dat2 (V7 m ρ) c).arrAt_in 1 rfl _).trans (A_eq2 (V7 m ρ) c 1)
    | ⟨2, _⟩, _ => exact ((dat2 (V7 m ρ) c).arrAt_in 2 rfl _).trans (A_eq2 (V7 m ρ) c 2)
    | ⟨3, _⟩, _ => exact ((dat2 (V7 m ρ) c).arrAt_in 3 rfl _).trans (A_eq2 (V7 m ρ) c 3)
    | ⟨4, _⟩, h => exact absurd rfl h

/-- The fourth region leaves what the combination, as an operation, leaves. -/
theorem exit3 (c : Dev nD) : W10 m ρ c = blend.result (W9 m ρ c) := by
  unfold W10
  refine RegionOp.withArrays_eq_result spec3 launch3.win.arr_inj c (W9 m ρ c) _ blend 4 rfl ?_ ?_
  · refine (Blend.final (V9 m ρ) c).trans
      (Eq.trans ?_ (quaternary_result main_v64 main_arg6 main_v50 main_arg1 main_v66 _ _ _ _ _ _ (W9 m ρ c)).symm)
    exact congrArg (fun b => Blend.host (W9 m ρ c (Proc.devRef .tc main_v64)) b (W9 m ρ c (Proc.devRef .tc main_v50))
      (W9 m ρ c (Proc.devRef .tc main_arg1))) (row3 m ρ c)
  · intro w hw
    match w, hw with
    | ⟨0, _⟩, _ => exact ((dat3 (V9 m ρ) c).arrAt_in 0 rfl _).trans (A_eq3 (V9 m ρ) c 0)
    | ⟨1, _⟩, _ => exact ((dat3 (V9 m ρ) c).arrAt_in 1 rfl _).trans (A_eq3 (V9 m ρ) c 1)
    | ⟨2, _⟩, _ => exact ((dat3 (V9 m ρ) c).arrAt_in 2 rfl _).trans (A_eq3 (V9 m ρ) c 2)
    | ⟨3, _⟩, _ => exact ((dat3 (V9 m ρ) c).arrAt_in 3 rfl _).trans (A_eq3 (V9 m ρ) c 3)
    | ⟨4, _⟩, h => exact absurd rfl h

/-! ## The selection of the inverse root degree

The stretch that computes where(deg > 0, deg^(−1/2), 0) is printed through typed references, whose contents are moved
to and from each buffer's own type along an equation between two equal types.  The transports change nothing: the
stretch is these three plain operations. -/

/-- The selection, its buffers read at their own types. -/
abbrev whereOps : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1
      (broadcastInDim S100000 ![] bcast_S_S100000 : (⟨S_, .f32⟩ : BufTy).Contents (Elt Ideal) → (⟨S100000, .f32⟩ : BufTy).Contents (Elt Ideal)),
    StableHlo.ternary main_v12 main_v13 main_call0_v1 main_v14
      (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]

/-- The printed stretch is the plain one. -/
theorem where_eq : (hostOps0_1 : List (HloOp τ sig (Elt Ideal))) = whereOps := rfl

/-! ## The run as one line -/

/-- The contents at the return: the stretches of host operations and the four region operations, folded in order
    over the launch contents. -/
theorem line (c : Dev nD) :
    W10 m ρ c = blend.result (after hostOps3 (candidate.result (after hostOps2 (gate.result (after hostOps1
      (project.result (after hostOps0_2 (after whereOps (after hostOps0 (W0 m ρ c)))))))))) := by
  rw [exit3]
  show blend.result (after hostOps3 (W8 m ρ c)) = _
  rw [exit2]
  show blend.result (after hostOps3 (candidate.result (after hostOps2 (W6 m ρ c)))) = _
  rw [exit1]
  show blend.result (after hostOps3 (candidate.result (after hostOps2 (gate.result (after hostOps1 (W4 m ρ c)))))) = _
  rw [exit0]
  show blend.result (after hostOps3 (candidate.result (after hostOps2 (gate.result (after hostOps1
    (project.result (after hostOps0_2 (after hostOps0_1 (after hostOps0 (W0 m ρ c)))))))))) = _
  rw [where_eq]

/-! ## The result -/

set_option maxHeartbeats 80000000 in
set_option maxRecDepth 100000 in
/-- What the kernel's result buffer holds at the return is the reference's composed term of the same arguments: the
    line walked backwards from the result, against the reference's term with its arguments rewritten to the
    kernel's. -/
theorem result_eq
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W10 m ρ c (Proc.devRef .tc main_v66) = Cert.ReferenceIdeal.ValueP.res_main_v83 m' c := by
  rw [line m ρ c]
  dsimp only [project, gate, candidate, blend, whereOps]
  eval_line
  unfold Cert.ReferenceIdeal.ValueP.res_main_v83
  rw [h0, h1, h2, h3, h4, h5, h6]
  unfold Project.host Gate.host Candidate.host Blend.host Cert.LineEval.joined
  rfl

end Cert.GatedCell.Line

end
-- ==== Proof.lean ====
/-
  A gated graph recurrent cell: the kernel and its reference compute one function.

  The cell takes node features x and a hidden state h on a graph with self-loops and symmetric degree normalisation.
  With A the normalised neighbour aggregation (a gather along source nodes, a scaling by the edge coefficients and a
  scatter-add into destination nodes), the cell is
      [r | u] = σ(A([x | h]·W₁) + b₁),     c = tanh(A([x | r ⊙ h]·W₂) + b₂),     h' = u ⊙ h + (1 − u) ⊙ c,
  where r and u are the two halves of the gate's array read in row-major order.

  The reference is this expression as a line of host operations.  The kernel keeps the host's aggregation, reshapes
  and splits, and runs the four dense stages — the two projections, the gate and the final combination — as regions
  that walk the node axis in blocks of 5000 rows.  Over the extended reals each region leaves the host's own
  expression of its stage (a row of a stage depends on the same rows of its node-indexed operands, the blocks tile
  the node axis, narrowing an operand changes nothing, and the logistic function is 1 / (1 + exp(−z)) everywhere), so
  the kernel's run is one line of operations whose backwards walk from the result is the reference's composed term.
  No law used needs a finite input: the precondition is not opened.

  The three frames: the two kernels' are the generated frame certificates; the reference's is its run with the
  result forgotten.  No operation was rewritten when the kernel was idealized, so there is nothing to preserve.
-/
import proofs.«161021_j60352880443529_1_alg».proof.Defs
import proofs.«161021_j60352880443529_1_alg».proof.Proof.Gen.Kernel
import proofs.«161021_j60352880443529_1_alg».proof.Proof.Gen.Kernel.Skeleton
import proofs.«161021_j60352880443529_1_alg».proof.Proof.Gen.Kernel.Launch
import proofs.«161021_j60352880443529_1_alg».proof.Proof.Gen.Kernel.Points
import proofs.«161021_j60352880443529_1_alg».proof.Proof.Gen.Kernel.Frame
import proofs.«161021_j60352880443529_1_alg».proof.Proof.Gen.KernelIdeal
import proofs.«161021_j60352880443529_1_alg».proof.Proof.Gen.KernelIdeal.Skeleton
import proofs.«161021_j60352880443529_1_alg».proof.Proof.Gen.KernelIdeal.Launch
import proofs.«161021_j60352880443529_1_alg».proof.Proof.Gen.KernelIdeal.Points
import proofs.«161021_j60352880443529_1_alg».proof.Proof.Gen.KernelIdeal.Frame
import proofs.«161021_j60352880443529_1_alg».proof.Proof.Gen.ReferenceIdeal
import proofs.«161021_j60352880443529_1_alg».proof.Proof.Gen.Pre_finite_inputs
import proofs.«161021_j60352880443529_1_alg».proof.Proof.ReferenceRun
import proofs.«161021_j60352880443529_1_alg».proof.Proof.KernelRun
import proofs.«161021_j60352880443529_1_alg».proof.Proof.Line
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- The idealized kernel runs and leaves its arguments as launched. -/
theorem frame_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs run, and the kernel's result — the last boundary's
    contents of its result buffer — is the reference's composed term. -/
theorem algebraic : Cert.algebraic_KernelIdeal_ReferenceIdeal := by
  intro m ρ m' ρ' _ hagree
  refine ⟨fun c => Cert.KernelIdeal.Gen.W10 m ρ c (Proc.devRef .tc Cert.KernelIdeal.main_v66),
    Cert.GatedCell.KernelRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  exact (Cert.GatedCell.Line.result_eq m ρ m' c h0 h1 h2 h3 h4 h5 h6).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
